-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel

variable [Facts]

def fn {F : FTy → Type} [FloatOps F] (main_arg0 : FVec F S32x4096x512 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  main_v3
-- ==== Kernel.lean ====
abbrev S32x4096x512 : Shape := ⟨3, ![32, 4096, 512]⟩
abbrev S32x2048x1024 : Shape := ⟨3, ![32, 2048, 1024]⟩
abbrev S1x2048x256 : Shape := ⟨3, ![1, 2048, 256]⟩
abbrev S1x4096x256 : Shape := ⟨3, ![1, 4096, 256]⟩
abbrev S2048x256 : Shape := ⟨2, ![2048, 256]⟩
abbrev S4096x256 : Shape := ⟨2, ![4096, 256]⟩

abbrev nBuf : Space → Nat
  | .hbm => 3
  | .vmem => 6
  | .smem => 0
  | _ => 0

abbrev bufTy : (tb : Table) → Fin (tcTables nBuf tb) → BufTy
  | .hbm, ⟨0, _⟩ => ⟨S32x4096x512, .f32⟩
  | .hbm, ⟨1, _⟩ => ⟨S32x2048x1024, .f32⟩
  | .hbm, ⟨2, _⟩ => ⟨S32x4096x512, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x4096x256, .f32⟩
  | .local _ .vmem, ⟨5, _⟩ => ⟨S1x4096x256, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S32x4096x512_S32x2048x1024 : S32x4096x512.ShapeCasts S32x2048x1024
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x4096x256_S1x4096x256_0_0_0 : ∀ a, (![0, 0, 0] : Fin 3 → Nat) a + S1x4096x256.size a ≤ S1x4096x256.size a
  squeezes_S1x4096x256_S4096x256 : S1x4096x256.Squeezes S4096x256
  inb_S4096x256_S2048x256_0_0 : ∀ a, (![0, 0] : Fin 2 → Nat) a + S2048x256.size a ≤ S4096x256.size a
  h_S2048x256 : 0 < S2048x256.numel
  inb_S4096x256_S2048x256_2048_0 : ∀ a, (![2048, 0] : Fin 2 → Nat) a + S2048x256.size a ≤ S4096x256.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x2048x1024.size a
  hwx0_0 : ∀ i : grid0.Coords, EltTy.bits .f32 = 32 ∨ (Rect.block (s := S32x2048x1024) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S32x2048x1024.size a
  hwx0_1 : ∀ i : grid0.Coords, EltTy.bits .f32 = 32 ∨ (Rect.block (s := S32x2048x1024) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S32x4096x512.size a
  hwx0_2 : ∀ i : grid0.Coords, EltTy.bits .f32 = 32 ∨ (Rect.block (s := S32x4096x512) S1x4096x256.size (cc0_transform_2 i) (hinb0_2 i)).WholeWords (EltTy.packing .f32)

variable [Facts₀]

abbrev win0_0 : Pipeline.Window sig grid0 :=
  Pipeline.Window.ofSpec (Memref.whole main_v0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x512 : Shape := ⟨3, ![32, 4096, 512]⟩
abbrev S32x2048x2x512 : Shape := ⟨4, ![32, 2048, 2, 512]⟩
abbrev S32x2048x1x512 : Shape := ⟨4, ![32, 2048, 1, 512]⟩
abbrev S32x2048x512 : Shape := ⟨3, ![32, 2048, 512]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S32x2048x2x512, .f32⟩
  | .hbm, ⟨2, _⟩ => ⟨S32x2048x1x512, .f32⟩
  | .hbm, ⟨3, _⟩ => ⟨S32x2048x512, .f32⟩
  | .hbm, ⟨4, _⟩ => ⟨S32x2048x1x512, .f32⟩
  | .hbm, ⟨5, _⟩ => ⟨S32x2048x512, .f32⟩
  | .hbm, ⟨6, _⟩ => ⟨S32x2048x512, .f32⟩
  | .hbm, ⟨7, _⟩ => ⟨S_, .f32⟩
  | .hbm, ⟨8, _⟩ => ⟨S32x2048x512, .f32⟩
  | .hbm, ⟨9, _⟩ => ⟨S32x2048x512, .f32⟩
  | .hbm, ⟨10, _⟩ => ⟨S32x2048x512, .f32⟩
  | .hbm, ⟨11, _⟩ => ⟨S_, .f32⟩
  | .hbm, ⟨12, _⟩ => ⟨S32x2048x512, .f32⟩
  | .hbm, ⟨13, _⟩ => ⟨S32x2048x512, .f32⟩
  | .hbm, ⟨14, _⟩ => ⟨S32x4096x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  shapeCasts_S32x4096x512_S32x2048x2x512 : S32x4096x512.ShapeCasts S32x2048x2x512
  slices_S32x2048x2x512_S32x2048x1x512_0_0_0_0 : S32x2048x2x512.Slices ![0, 0, 0, 0] S32x2048x1x512
  shapeCasts_S32x2048x1x512_S32x2048x512 : S32x2048x1x512.ShapeCasts S32x2048x512
  slices_S32x2048x2x512_S32x2048x1x512_0_0_1_0 : S32x2048x2x512.Slices ![0, 0, 1, 0] S32x2048x1x512
  bcast_S_S32x2048x512 : S_.BroadcastsInDim S32x2048x512 (![] : Fin 0 → Fin S32x2048x512.rank)
  concatenates_S32x2048x512_S32x2048x512_S32x4096x512_d1 : Shape.Concatenates [S32x2048x512, S32x2048x512] S32x4096x512 1

variable [Facts₀]

class Facts : Prop extends Facts₀ where

variable [Facts]
-- ==== Proof.BitsBody.lean ====
/-
  One grid point of the level-1 Haar step.  The body is handed two blocks of shape [1, 2048, 256] — for one
  batch entry and one tile of 256 lanes, the even rows x0 and the odd rows x1 of the sequence axis — and fills
  a block of shape [1, 4096, 256]: rows 0 … 2047 with (x0 + x1) · c and rows 2048 … 4095 with (x0 − x1) · c,
  c the single-precision word nearest 1/√2.  Both halves are stored through the output block seen WITHOUT its
  leading unit axis, as a [4096, 256] matrix; the two row ranges are disjoint and together are all 4096 rows,
  so what the block holds afterwards does not depend on what it held before.

  `pairRows x0 x1` is that [4096, 256] matrix, `pairBlock x0 x1` the same entries under the shape
  [1, 4096, 256], and `sound_kernel` says the body, run on whole buffers holding x0, x1 and anything, ends with
  the third holding `pairBlock x0 x1` and the first two unchanged.
-/
import proofs.«149679_j4217657884944_2_alg».proof.Proof.Gen.Kernel.Launch
import proofs.«149679_j4217657884944_2_alg».proof.Proof.Gen.Kernel.Skeleton
import proofs.«149679_j4217657884944_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Haar

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- All of an input block. -/
abbrev rIn : Rect S1x2048x256 := Rect.unit (s := S1x2048x256) ![0, 0, 0] S1x2048x256.size inb_S1x2048x256_S1x2048x256_0_0_0
/-- All of the output block, before its unit axis is dropped. -/
abbrev rOut : Rect S1x4096x256 := Rect.unit (s := S1x4096x256) ![0, 0, 0] S1x4096x256.size inb_S1x4096x256_S1x4096x256_0_0_0
/-- Rows 0 … 2047 of the [4096, 256] matrix: where the scaled sums go. -/
abbrev rTop : Rect S4096x256 := Rect.unit (s := S4096x256) ![0, 0] S2048x256.size inb_S4096x256_S2048x256_0_0
/-- Rows 2048 … 4095: where the scaled differences go. -/
abbrev rBot : Rect S4096x256 := Rect.unit (s := S4096x256) ![2048, 0] S2048x256.size inb_S4096x256_S2048x256_2048_0

theorem zero3 : (![0, 0, 0] : Fin 3 → Nat) = fun _ => 0 :=
  funext fun a => match a with | ⟨0, _⟩ => rfl | ⟨1, _⟩ => rfl | ⟨2, _⟩ => rfl

/-- The same 4096 · 256 entries under the two shapes. -/
theorem block_rows : S1x4096x256.ShapeCasts S4096x256 := by decide
theorem rows_block : S4096x256.ShapeCasts S1x4096x256 := by decide

/-! ## What the body leaves in the output block -/

/-- The [4096, 256] matrix the two stores leave: the scaled sums over the scaled differences (the later store
    first, as the canonical contents of a list of stores are read). -/
def pairRows (x0 x1 : Vec F S1x2048x256 .f32) : Vec F S4096x256 .f32 :=
  View.canon [⟨rBot, k0_pay4 (View.ld x0 rIn) (View.ld x1 rIn)⟩, ⟨rTop, k0_pay3 (View.ld x0 rIn) (View.ld x1 rIn)⟩]

/-- The output block: `pairRows` with the leading unit axis put back. -/
def pairBlock (x0 x1 : Vec F S1x2048x256 .f32) : Vec F S1x4096x256 .f32 :=
  shapeCast S1x4096x256 (pairRows x0 x1) rows_block

/-- The two row ranges are all the rows: 2048 + 2048 = 4096. -/
theorem rows_cover (p4 p3 : Vec F S2048x256 .f32) (y : S4096x256.Idx) :
    ∃ pc ∈ ([⟨rBot, p4⟩, ⟨rTop, p3⟩] : List (View.Piece (Elt F) S4096x256 .f32)), y ∈ pc.1.set :=
  View.cover_of_tiled [⟨rBot, p4⟩, ⟨rTop, p3⟩] S2048x256.size (by rfl) y

/-- A whole [1, 4096, 256] buffer read directly is what it reads without its unit axis, with the axis put back. -/
theorem read_through_rows (arg4 : Memref sig .tc .vmem S1x4096x256 .f32) (f : arg4.view.ty.Contents (Elt F)) :
    arg4.view.read (Elt F) f
      = shapeCast S1x4096x256 (((arg4.slice rOut (fun _ => rfl)).squeeze S4096x256 squeezes_S1x4096x256_S4096x256).view.read (Elt F) f) rows_block := by
  rw [Memref.read_squeeze_slice arg4 rOut (fun _ => rfl) squeezes_S1x4096x256_S4096x256 block_rows f, View.readAt_eq_ld,
    View.ld_unit_zero zero3, shapeCast_shapeCast]

/-! ## The body's triple -/

set_option maxHeartbeats 1000000 in
/-- The body on whole buffers, the inputs' reading `x0` and `x1` and the output's anything, runs to the
    continuation holding the inputs' as they were and the output's at `pairBlock x0 x1`. -/
theorem sound_kernel (c : Dev nD) (E : Set ℕ) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S1x4096x256 .f32) (harg4 : arg4.IsWhole)
    (x0 : Vec F S1x2048x256 .f32) (x1 : Vec F S1x2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (pairBlock x0 x1)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  rw [harg4.set_eq_univ]
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_through_rows]
  unfold pairBlock
  congr 1
  exact View.read_writes_eq_canon ((arg4.slice rOut (fun _ => rfl)).squeeze S4096x256 squeezes_S1x4096x256_S4096x256).view f2
    [⟨rBot, _⟩, ⟨rTop, _⟩] (rows_cover _ _)

end Cert.Kernel.Haar

end
-- ==== Proof.BitsRegion.lean ====
/-
  The region of the Haar step and its proof data.  @main first views x : [32, 4096, 512] as xr : [32, 2048, 1024]
  (row p of xr is rows 2p and 2p+1 of x laid side by side), then runs the kernel over a grid of 32 · 2 points.
  At point (b, j) the first window fetches lanes 256 j … 256 j + 255 of xr[b] — the even rows of x — and the
  second window lanes 512 + 256 j … of the SAME array xr[b] — the odd rows; the third window writes the block
  of the result at (b, ·, 256 j …).

  Because the two input windows read one array, that array's ownership is halved between them: the first holds
  the left half share, the second the right half share; both only read.  After the body each input buffer still
  holds the block it was handed, and the output buffer holds `pairBlock` of the two.
-/
import proofs.«149679_j4217657884944_2_alg».proof.Proof.BitsBody

set_option maxRecDepth 16384

noncomputable section

namespace Cert.Kernel.Haar

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host operation, the reshape to [32, 2048, 1024]. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result only: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The even-rows window's buffer holds its block at every point, for any proof data whose array is the
    region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the odd-rows window. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`: the arrays as the region finds them; after the body at point `t` each input buffer
    at its block and the output buffer at `pairBlock` of the two; between points only the core's scoped buffers that
    are no staging buffer (there are none); nothing owed; the shared input array halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => pairBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = pairBlock (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Haar

end
-- ==== Proof.LibSharedLaunch.lean ====
/-
  The frame run of a one-region program whose windows may SHARE an array, stated once for any program.

  When a kernel is handed one array through several input windows, the buffers behind its windows are fewer than
  the windows, and the launch cannot give each window its array at the full share.  What it can do is hand over
  each distinct buffer whole; the certificate then says how each is dealt among the windows on it (`hsplit`): an
  array read by two windows goes half to each (`pointsTo_halves`), and reading needs no more.  Everything else is
  as for distinct arrays: the body obligation at every point, nothing owed, @main up to the region, and an
  invariant that is just the core's scoped buffers that are no staging buffer.  The conclusion is the same post as
  for distinct arrays: every window's array at what the write-backs make of it, every other unscoped buffer as the
  region found it.

  `arrays_eq_shares` restates the windows' holdings buffer by buffer, each whole at its window's share, which is the
  form in which `hsplit` is proved.
-/
import Idealize.ShloMosaic.Lib.Pipeline.Frame
import Idealize.ShloMosaic.Lib.Pipeline.Kit
import Idealize.ShloMosaic.Lib.Pipeline.Launch

noncomputable section

namespace Cert.Lib.SharedLaunch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

local notation "𝕄" => MT nD τ sig Unit Val ℕ (UR sig nD τ) ℕ

/-- A buffer whole at the full share is the same buffer at the left half share and at the right half share. -/
theorem pointsTo_halves (ℓ : Loc nD τ sig) (f : Buf Val ℓ) :
    ((ℓ ↦{fullShare} f) : sProp 𝕄) ⊢ iprop((ℓ ↦{fullShare.left} f) ∗ (ℓ ↦{fullShare.right} f)) :=
  (pointsTo_share (PosShare.mem_left_op_right fullShare)).1

variable {Λ₀ : Idealize.SL.Sem.Labels} {P : Type}

/-- The windows' holdings, each array a whole buffer at its window's share. -/
theorem arrays_eq_shares {cfg : Cfg sig Λ₀} {c : Dev nD} (dat : Dat τ Val Unit ℕ (UR sig nD τ) ℕ cfg c)
    (harr : ∀ w, (cfg.spec w).arr.IsWhole)
    (G : (w : Fin cfg.W) → Buf Val ((cfg.win w).arr.view.loc (c.tc : Thread nD τ))) :
    dat.arrays G
      = bigSep Finset.univ fun w : Fin cfg.W => (((c.tc : Thread nD τ).loc (arrRef cfg.spec w)) ↦{dat.share w} G w : sProp 𝕄) := by
  unfold Dat.arrays
  exact bigSep_congr fun w _ => by rw [(harr w).set_eq_univ]

variable [Fintype P] [DecidableEq P] [∀ e, Nonempty (Val e)]

/-- THE FRAME RUN for windows that may share arrays: from the layout facts that do not ask the arrays distinct, the
    body obligation, @main up to the region and the deal of the distinct buffers among the windows, every weakly fair
    execution terminates without a fault, every window's array ends at `Dat.arrAt … N` and every other unscoped buffer as
    the region found it. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄)
      ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main
    (hbody := hbody) (hne := hne) (harr := harr) (hstage := hstage) (howed := howed)
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩
      iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h => h)

end Cert.Lib.SharedLaunch

end
-- ==== Proof.BitsRun.lean ====
/-
  The run of the Haar step's program.  The launch hands the region the two distinct buffers behind its three
  windows — xr : [32, 2048, 1024], read by both input windows, and the result — each whole.  The result goes to
  the output window whole; xr is split along its share, the left half to the even-rows window and the right half
  to the odd-rows window, which is all either needs to read it.  With that, every weakly fair execution of
  @main terminates, faults nowhere, leaves each window's array at what the write-backs make of it and every
  other unscoped buffer — the argument x — as the region found it.
-/
import proofs.«149679_j4217657884944_2_alg».proof.Proof.BitsRegion
import proofs.«149679_j4217657884944_2_alg».proof.Proof.LibSharedLaunch
import Idealize.ShloMosaic.Lib.Pipeline.Frame

set_option maxRecDepth 16384

noncomputable section

namespace Cert.Kernel.Haar

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shared array dealt between its two windows -/

/-- The buffers behind the three windows are two: xr and the result. -/
theorem arrRefs_eq : Finset.univ.image (Pipeline.arrRef spec0) = [main_v0, main_v1].toFinset := by decide

/-- The two buffers the launch hands over, one after the other. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_v0) ↦{fullShare} V m c main_v0) ∗ (((c.tc : Thread nD τ).loc main_v1) ↦{fullShare} V m c main_v1)) := by
  unfold Pipeline.arrBufs
  exact bigSep_eq_bigSepL_of_eq [main_v0, main_v1] arrRefs_eq (by decide) _

/-- Between points the proof data keep only the scoped buffers that are no staging buffer. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- xr whole is xr at the left half share and xr at the right half share; the result whole is the result whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Cert.Lib.SharedLaunch.arrays_eq_shares (dats m 0 c) arr_whole0, bigSep_W0, arrBufs_eq]
  rw [show (dats m 0 c).share 0 = fullShare.left from rfl, show (dats m 0 c).share 1 = fullShare.right from rfl,
    show (dats m 0 c).share 2 = fullShare from rfl]
  iintro ⟨H0, H1⟩
  ihave H0' := (Cert.Lib.SharedLaunch.pointsTo_halves ((c.tc : Thread nD τ).loc main_v0) (V m c main_v0)) $$ H0
  icases H0' with ⟨Hl, Hr⟩
  isplitl [Hl]; · iexact Hl
  isplitl [Hr]; · iexact Hr
  iexact H1

/-! ## The run -/

set_option backward.isDefEq.respectTransparency.types false in
/-- Every weakly fair execution of @main terminates without a fault; at the end each window's array holds what
    the write-backs of the proof data make of it, and every other unscoped buffer what the region found. -/
theorem run_main : θ_run defs (onTc (τ := τ) (main (F := F))) (s₀ m ρ) (Pipeline.FramePost cfgs (dats m) 0 (V m)) :=
  Cert.Lib.SharedLaunch.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (Φ_eq m)

/-- The frame of the program at any reading of its floats: it runs to the end and the argument x is unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 (by decide) (by decide))).trans (V_main_arg0 m c))
    (run_main m ρ)

end Cert.Kernel.Haar

end
-- ==== Proof.IdealBody.lean ====
/-
  One grid point of the level-1 Haar step.  The body is handed two blocks of shape [1, 2048, 256] — for one
  batch entry and one tile of 256 lanes, the even rows x0 and the odd rows x1 of the sequence axis — and fills
  a block of shape [1, 4096, 256]: rows 0 … 2047 with (x0 + x1) · c and rows 2048 … 4095 with (x0 − x1) · c,
  c the single-precision word nearest 1/√2.  Both halves are stored through the output block seen WITHOUT its
  leading unit axis, as a [4096, 256] matrix; the two row ranges are disjoint and together are all 4096 rows,
  so what the block holds afterwards does not depend on what it held before.

  `pairRows x0 x1` is that [4096, 256] matrix, `pairBlock x0 x1` the same entries under the shape
  [1, 4096, 256], and `sound_kernel` says the body, run on whole buffers holding x0, x1 and anything, ends with
  the third holding `pairBlock x0 x1` and the first two unchanged.
-/
import proofs.«149679_j4217657884944_2_alg».proof.Proof.Gen.KernelIdeal.Launch
import proofs.«149679_j4217657884944_2_alg».proof.Proof.Gen.KernelIdeal.Skeleton
import proofs.«149679_j4217657884944_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Haar

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- All of an input block. -/
abbrev rIn : Rect S1x2048x256 := Rect.unit (s := S1x2048x256) ![0, 0, 0] S1x2048x256.size inb_S1x2048x256_S1x2048x256_0_0_0
/-- All of the output block, before its unit axis is dropped. -/
abbrev rOut : Rect S1x4096x256 := Rect.unit (s := S1x4096x256) ![0, 0, 0] S1x4096x256.size inb_S1x4096x256_S1x4096x256_0_0_0
/-- Rows 0 … 2047 of the [4096, 256] matrix: where the scaled sums go. -/
abbrev rTop : Rect S4096x256 := Rect.unit (s := S4096x256) ![0, 0] S2048x256.size inb_S4096x256_S2048x256_0_0
/-- Rows 2048 … 4095: where the scaled differences go. -/
abbrev rBot : Rect S4096x256 := Rect.unit (s := S4096x256) ![2048, 0] S2048x256.size inb_S4096x256_S2048x256_2048_0

theorem zero3 : (![0, 0, 0] : Fin 3 → Nat) = fun _ => 0 :=
  funext fun a => match a with | ⟨0, _⟩ => rfl | ⟨1, _⟩ => rfl | ⟨2, _⟩ => rfl

/-- The same 4096 · 256 entries under the two shapes. -/
theorem block_rows : S1x4096x256.ShapeCasts S4096x256 := by decide
theorem rows_block : S4096x256.ShapeCasts S1x4096x256 := by decide

/-! ## What the body leaves in the output block -/

/-- The [4096, 256] matrix the two stores leave: the scaled sums over the scaled differences (the later store
    first, as the canonical contents of a list of stores are read). -/
def pairRows (x0 x1 : Vec F S1x2048x256 .f32) : Vec F S4096x256 .f32 :=
  View.canon [⟨rBot, k0_pay4 (View.ld x0 rIn) (View.ld x1 rIn)⟩, ⟨rTop, k0_pay3 (View.ld x0 rIn) (View.ld x1 rIn)⟩]

/-- The output block: `pairRows` with the leading unit axis put back. -/
def pairBlock (x0 x1 : Vec F S1x2048x256 .f32) : Vec F S1x4096x256 .f32 :=
  shapeCast S1x4096x256 (pairRows x0 x1) rows_block

/-- The two row ranges are all the rows: 2048 + 2048 = 4096. -/
theorem rows_cover (p4 p3 : Vec F S2048x256 .f32) (y : S4096x256.Idx) :
    ∃ pc ∈ ([⟨rBot, p4⟩, ⟨rTop, p3⟩] : List (View.Piece (Elt F) S4096x256 .f32)), y ∈ pc.1.set :=
  View.cover_of_tiled [⟨rBot, p4⟩, ⟨rTop, p3⟩] S2048x256.size (by rfl) y

/-- A whole [1, 4096, 256] buffer read directly is what it reads without its unit axis, with the axis put back. -/
theorem read_through_rows (arg4 : Memref sig .tc .vmem S1x4096x256 .f32) (f : arg4.view.ty.Contents (Elt F)) :
    arg4.view.read (Elt F) f
      = shapeCast S1x4096x256 (((arg4.slice rOut (fun _ => rfl)).squeeze S4096x256 squeezes_S1x4096x256_S4096x256).view.read (Elt F) f) rows_block := by
  rw [Memref.read_squeeze_slice arg4 rOut (fun _ => rfl) squeezes_S1x4096x256_S4096x256 block_rows f, View.readAt_eq_ld,
    View.ld_unit_zero zero3, shapeCast_shapeCast]

/-! ## The body's triple -/

set_option maxHeartbeats 1000000 in
/-- The body on whole buffers, the inputs' reading `x0` and `x1` and the output's anything, runs to the
    continuation holding the inputs' as they were and the output's at `pairBlock x0 x1`. -/
theorem sound_kernel (c : Dev nD) (E : Set ℕ) (i : grid0.Coords)
    (arg2 : Memref sig .tc .vmem S1x2048x256 .f32) (harg2 : arg2.IsWhole)
    (arg3 : Memref sig .tc .vmem S1x2048x256 .f32) (harg3 : arg3.IsWhole)
    (arg4 : Memref sig .tc .vmem S1x4096x256 .f32) (harg4 : arg4.IsWhole)
    (x0 : Vec F S1x2048x256 .f32) (x1 : Vec F S1x2048x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (pairBlock x0 x1)) -∗ K ⟨⟩))
      ⊢ wp frame (wpE (defs₀ (F := F)) Variants.none c none) E (cc0_kernel i arg2 harg2 arg3 harg3 arg4 harg4) K := by
  simp only [cc0_kernel_eq_skeleton]; unfold cc0_kernel_skel
  unfold owns
  rw [harg4.set_eq_univ]
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [read_through_rows]
  unfold pairBlock
  congr 1
  exact View.read_writes_eq_canon ((arg4.slice rOut (fun _ => rfl)).squeeze S4096x256 squeezes_S1x4096x256_S4096x256).view f2
    [⟨rBot, _⟩, ⟨rTop, _⟩] (rows_cover _ _)

end Cert.KernelIdeal.Haar

end
-- ==== Proof.IdealRegion.lean ====
/-
  The region of the Haar step and its proof data.  @main first views x : [32, 4096, 512] as xr : [32, 2048, 1024]
  (row p of xr is rows 2p and 2p+1 of x laid side by side), then runs the kernel over a grid of 32 · 2 points.
  At point (b, j) the first window fetches lanes 256 j … 256 j + 255 of xr[b] — the even rows of x — and the
  second window lanes 512 + 256 j … of the SAME array xr[b] — the odd rows; the third window writes the block
  of the result at (b, ·, 256 j …).

  Because the two input windows read one array, that array's ownership is halved between them: the first holds
  the left half share, the second the right half share; both only read.  After the body each input buffer still
  holds the block it was handed, and the output buffer holds `pairBlock` of the two.
-/
import proofs.«149679_j4217657884944_2_alg».proof.Proof.IdealBody

set_option maxRecDepth 16384

noncomputable section

namespace Cert.KernelIdeal.Haar

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the one host operation, the reshape to [32, 2048, 1024]. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its own result only: the region finds the argument as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The even-rows window's buffer holds its block at every point, for any proof data whose array is the
    region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the odd-rows window. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data on core `c`: the arrays as the region finds them; after the body at point `t` each input buffer
    at its block and the output buffer at `pairBlock` of the two; between points only the core's scoped buffers that
    are no staging buffer (there are none); nothing owed; the shared input array halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => pairBlock (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = pairBlock (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Haar

end
-- ==== Proof.IdealRun.lean ====
/-
  The run of the Haar step's program.  The launch hands the region the two distinct buffers behind its three
  windows — xr : [32, 2048, 1024], read by both input windows, and the result — each whole.  The result goes to
  the output window whole; xr is split along its share, the left half to the even-rows window and the right half
  to the odd-rows window, which is all either needs to read it.  With that, every weakly fair execution of
  @main terminates, faults nowhere, leaves each window's array at what the write-backs make of it and every
  other unscoped buffer — the argument x — as the region found it.
-/
import proofs.«149679_j4217657884944_2_alg».proof.Proof.IdealRegion
import proofs.«149679_j4217657884944_2_alg».proof.Proof.LibSharedLaunch
import Idealize.ShloMosaic.Lib.Pipeline.Frame

set_option maxRecDepth 16384

noncomputable section

namespace Cert.KernelIdeal.Haar

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shared array dealt between its two windows -/

/-- The buffers behind the three windows are two: xr and the result. -/
theorem arrRefs_eq : Finset.univ.image (Pipeline.arrRef spec0) = [main_v0, main_v1].toFinset := by decide

/-- The two buffers the launch hands over, one after the other. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_v0) ↦{fullShare} V m c main_v0) ∗ (((c.tc : Thread nD τ).loc main_v1) ↦{fullShare} V m c main_v1)) := by
  unfold Pipeline.arrBufs
  exact bigSep_eq_bigSepL_of_eq [main_v0, main_v1] arrRefs_eq (by decide) _

/-- Between points the proof data keep only the scoped buffers that are no staging buffer. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- xr whole is xr at the left half share and xr at the right half share; the result whole is the result whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Cert.Lib.SharedLaunch.arrays_eq_shares (dats m 0 c) arr_whole0, bigSep_W0, arrBufs_eq]
  rw [show (dats m 0 c).share 0 = fullShare.left from rfl, show (dats m 0 c).share 1 = fullShare.right from rfl,
    show (dats m 0 c).share 2 = fullShare from rfl]
  iintro ⟨H0, H1⟩
  ihave H0' := (Cert.Lib.SharedLaunch.pointsTo_halves ((c.tc : Thread nD τ).loc main_v0) (V m c main_v0)) $$ H0
  icases H0' with ⟨Hl, Hr⟩
  isplitl [Hl]; · iexact Hl
  isplitl [Hr]; · iexact Hr
  iexact H1

/-! ## The run -/

set_option backward.isDefEq.respectTransparency.types false in
/-- Every weakly fair execution of @main terminates without a fault; at the end each window's array holds what
    the write-backs of the proof data make of it, and every other unscoped buffer what the region found. -/
theorem run_main : θ_run defs (onTc (τ := τ) (main (F := F))) (s₀ m ρ) (Pipeline.FramePost cfgs (dats m) 0 (V m)) :=
  Cert.Lib.SharedLaunch.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (Φ_eq m)

/-- The frame of the program at any reading of its floats: it runs to the end and the argument x is unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
      ((h c).2 main_arg0 (Pipeline.mem_restRefs_of main_arg0 (by decide) (by decide))).trans (V_main_arg0 m c))
    (run_main m ρ)

end Cert.KernelIdeal.Haar

end
-- ==== Proof.HaarSpec.lean ====
/-
  The level-1 Haar step along the sequence axis, index by index.  For x : [32, 4096, 512] and c the
  single-precision word nearest 1/√2, the result y : [32, 4096, 512] is

      y (b, l, f)        = (x (b, 2l, f)   + x (b, 2l+1, f)) · c     for l < 2048      (the approximation coefficients)
      y (b, 2048 + p, f) = (x (b, 2p, f)   − x (b, 2p+1, f)) · c     for p < 2048      (the detail coefficients)

  Both programs apply exactly these operations in this order to these entries, so the function is stated once,
  over any reading of the floats; no law of arithmetic is used anywhere in this certificate.
-/
import Idealize.ShloMosaic.Lib.ValueIdx
import Idealize.ShloMosaic.PureOps

noncomputable section

namespace Cert.HaarSpec

open Idealize.ShloMosaic Idealize.ShloMosaic.ValueIdx

/-- The shape of the argument and of the result. -/
abbrev Sx : Shape := ⟨3, ![32, 4096, 512]⟩

variable {F : FTy → Type} [FloatOps F]

/-- The scale both programs multiply by: the word 0x3F3504F3. -/
def scale : F .f32 := FloatOps.ofBits .f32 0x3F3504F3#32

/-- The result at coordinates: a scaled sum of a pair of consecutive rows in the first half of the sequence
    axis, the scaled difference of a pair in the second half. -/
def haarAt (x : Sx.Idx → Elt F .f32) (b : Fin 32) (l : Fin 4096) (f : Fin 512) : Elt F .f32 :=
  if h : l.val < 2048 then
    FloatOps.mulf (FloatOps.addf (x (ix3 b (⟨2 * l.val, by omega⟩ : Fin 4096) f)) (x (ix3 b (⟨2 * l.val + 1, by omega⟩ : Fin 4096) f))) scale
  else
    FloatOps.mulf (FloatOps.subf (x (ix3 b (⟨2 * (l.val - 2048), by have := l.isLt; omega⟩ : Fin 4096) f))
      (x (ix3 b (⟨2 * (l.val - 2048) + 1, by have := l.isLt; omega⟩ : Fin 4096) f))) scale

/-- The result as an array. -/
def haar (x : Sx.Idx → Elt F .f32) : Sx.Idx → Elt F .f32 := fun i => haarAt x (i 0) (i 1) (i 2)

theorem haar_ix3 (x : Sx.Idx → Elt F .f32) (b : Fin 32) (l : Fin 4096) (f : Fin 512) :
    haar x (ix3 b l f) = haarAt x b l f := rfl

/-- In the first half: the scaled sum of rows 2l and 2l+1. -/
theorem haarAt_low (x : Sx.Idx → Elt F .f32) (b : Fin 32) (l : Fin 4096) (f : Fin 512) (h : l.val < 2048)
    (e o : Fin 4096) (he : e.val = 2 * l.val) (ho : o.val = 2 * l.val + 1) :
    haarAt x b l f = FloatOps.mulf (FloatOps.addf (x (ix3 b e f)) (x (ix3 b o f))) scale := by
  unfold haarAt
  rw [dif_pos h]
  have e1 : e = ⟨2 * l.val, by omega⟩ := Fin.ext he
  have e2 : o = ⟨2 * l.val + 1, by omega⟩ := Fin.ext ho
  rw [e1, e2]

/-- In the second half: the scaled difference of rows 2(l − 2048) and 2(l − 2048) + 1. -/
theorem haarAt_high (x : Sx.Idx → Elt F .f32) (b : Fin 32) (l : Fin 4096) (f : Fin 512) (h : 2048 ≤ l.val)
    (e o : Fin 4096) (he : e.val = 2 * (l.val - 2048)) (ho : o.val = 2 * (l.val - 2048) + 1) :
    haarAt x b l f = FloatOps.mulf (FloatOps.subf (x (ix3 b e f)) (x (ix3 b o f))) scale := by
  unfold haarAt
  rw [dif_neg (by omega)]
  have e1 : e = ⟨2 * (l.val - 2048), by have := l.isLt; omega⟩ := Fin.ext he
  have e2 : o = ⟨2 * (l.val - 2048) + 1, by have := l.isLt; omega⟩ := Fin.ext ho
  rw [e1, e2]

end Cert.HaarSpec

end
-- ==== Proof.IdealBlockValue.lean ====
/-
  The output block read at coordinates.  `pairBlock x0 x1` at (0, r, q) is (x0 (0, r, q) + x1 (0, r, q)) · c for
  r < 2048 and (x0 (0, r − 2048, q) − x1 (0, r − 2048, q)) · c for r ≥ 2048: row r of the [4096, 256] matrix lies in
  exactly one of the two stored row ranges, and the stored values are entrywise operations of the two input
  blocks seen without their unit axis.
-/
import proofs.«149679_j4217657884944_2_alg».proof.Proof.IdealBody
import proofs.«149679_j4217657884944_2_alg».proof.Proof.HaarSpec
import Idealize.ShloMosaic.Lib.ValueIdx

set_option maxRecDepth 16384

noncomputable section

namespace Cert.KernelIdeal.Haar

open Cert.KernelIdeal.Gen Cert.HaarSpec
open Idealize.ShloMosaic Idealize.ShloMosaic.ValueIdx

variable {F : FTy → Type} [FloatOps F]

/-- An input block seen without its unit axis: entry (r, q) is the block's (0, r, q). -/
theorem drop_unit_apply (x : Vec F S1x2048x256 .f32) (r : Fin 2048) (q : Fin 256) :
    shapeCast S2048x256 x shapeCasts_S1x2048x256_S2048x256 (ix2 r q) = x (ix3 (⟨0, Nat.one_pos⟩ : Fin 1) r q) :=
  shapeCast_apply x _ (ix2 r q) (ix3 (⟨0, Nat.one_pos⟩ : Fin 1) r q) (by
    rw [Shape.rowMajor_val_three, Shape.rowMajor_val_two]
    show (0 * 2048 + r.val) * 256 + q.val = r.val * 256 + q.val
    omega)

/-- The [4096, 256] matrix with its unit axis put back: entry (0, r, q) is the matrix's (r, q). -/
theorem add_unit_apply (y : Vec F S4096x256 .f32) (u : Fin 1) (r : Fin 4096) (q : Fin 256) :
    shapeCast S1x4096x256 y rows_block (ix3 u r q) = y (ix2 r q) :=
  shapeCast_apply y _ (ix3 u r q) (ix2 r q) (by
    rw [Shape.rowMajor_val_two, Shape.rowMajor_val_three]
    show r.val * 256 + q.val = (u.val * 4096 + r.val) * 256 + q.val
    have := u.isLt
    omega)

/-- The scaled sums at (r, q), from the input blocks' entries at (0, r, q). -/
theorem sums_apply (x0 x1 : Vec F S1x2048x256 .f32) (r : Fin 2048) (q : Fin 256) :
    k0_pay3 (View.ld x0 rIn) (View.ld x1 rIn) (ix2 r q)
      = FloatOps.mulf (FloatOps.addf (x0 (ix3 (⟨0, Nat.one_pos⟩ : Fin 1) r q)) (x1 (ix3 (⟨0, Nat.one_pos⟩ : Fin 1) r q))) scale := by
  simp only [View.ld_unit_zero (S := S1x2048x256) zero3]
  unfold k0_pay3 k0_pay1 k0_pay2
  show FloatOps.mulf (FloatOps.addf (shapeCast S2048x256 x0 shapeCasts_S1x2048x256_S2048x256 (ix2 r q))
      (shapeCast S2048x256 x1 shapeCasts_S1x2048x256_S2048x256 (ix2 r q))) (FloatOps.ofBits .f32 0x3F3504F3#32) = _
  rw [drop_unit_apply, drop_unit_apply]
  rfl

/-- The scaled differences at (r, q). -/
theorem diffs_apply (x0 x1 : Vec F S1x2048x256 .f32) (r : Fin 2048) (q : Fin 256) :
    k0_pay4 (View.ld x0 rIn) (View.ld x1 rIn) (ix2 r q)
      = FloatOps.mulf (FloatOps.subf (x0 (ix3 (⟨0, Nat.one_pos⟩ : Fin 1) r q)) (x1 (ix3 (⟨0, Nat.one_pos⟩ : Fin 1) r q))) scale := by
  simp only [View.ld_unit_zero (S := S1x2048x256) zero3]
  unfold k0_pay4 k0_pay1 k0_pay2
  show FloatOps.mulf (FloatOps.subf (shapeCast S2048x256 x0 shapeCasts_S1x2048x256_S2048x256 (ix2 r q))
      (shapeCast S2048x256 x1 shapeCasts_S1x2048x256_S2048x256 (ix2 r q))) (FloatOps.ofBits .f32 0x3F3504F3#32) = _
  rw [drop_unit_apply, drop_unit_apply]
  rfl

/-- Row r < 2048 of the matrix is row r of the upper range, -/
theorem top_emb (r : Fin 4096) (q : Fin 256) (h : r.val < 2048) : rTop.emb (ix2 (⟨r.val, h⟩ : Fin 2048) q) = ix2 r q := by
  funext a; apply Fin.ext
  rw [Rect.emb_apply]
  match a with
  | ⟨0, _⟩ => show 0 + 1 * r.val = r.val; omega
  | ⟨1, _⟩ => show 0 + 1 * q.val = q.val; omega

/-- and is not in the lower range; -/
theorem not_mem_bot (r : Fin 4096) (q : Fin 256) (h : r.val < 2048) : ix2 r q ∉ rBot.set := by
  rw [Rect.mem_set_unit]
  intro hh
  have h0 : 2048 ≤ r.val := (hh 0).1
  omega

/-- row r ≥ 2048 is row r − 2048 of the lower range. -/
theorem bot_emb (r : Fin 4096) (q : Fin 256) (h : 2048 ≤ r.val) :
    rBot.emb (ix2 (⟨r.val - 2048, by have := r.isLt; omega⟩ : Fin 2048) q) = ix2 r q := by
  funext a; apply Fin.ext
  rw [Rect.emb_apply]
  match a with
  | ⟨0, _⟩ => show 2048 + 1 * (r.val - 2048) = r.val; omega
  | ⟨1, _⟩ => show 0 + 1 * q.val = q.val; omega

/-- What two stores through the two row ranges leave at row r < 2048: the upper store's value at (r, q); -/
theorem rows_low (p4 p3 : Vec F S2048x256 .f32) (r : Fin 4096) (q : Fin 256) (h : r.val < 2048) :
    View.canon [(⟨rBot, p4⟩ : View.Piece (Elt F) S4096x256 .f32), ⟨rTop, p3⟩] (ix2 r q) = p3 (ix2 (⟨r.val, h⟩ : Fin 2048) q) := by
  rw [View.canon_cons_of_not_mem (⟨rBot, p4⟩ : View.Piece (Elt F) S4096x256 .f32) [⟨rTop, p3⟩] (not_mem_bot r q h)]
  rw [← top_emb r q h]
  exact View.canon_cons_emb rTop p3 [] _

/-- at row r ≥ 2048: the lower store's value at (r − 2048, q). -/
theorem rows_high (p4 p3 : Vec F S2048x256 .f32) (r : Fin 4096) (q : Fin 256) (h : 2048 ≤ r.val) :
    View.canon [(⟨rBot, p4⟩ : View.Piece (Elt F) S4096x256 .f32), ⟨rTop, p3⟩] (ix2 r q)
      = p4 (ix2 (⟨r.val - 2048, by have := r.isLt; omega⟩ : Fin 2048) q) := by
  rw [← bot_emb r q h]
  exact View.canon_cons_emb rBot p4 [⟨rTop, p3⟩] _

/-- The output block in its first 2048 rows: the scaled sum of the two input blocks' entries. -/
theorem pairBlock_low (x0 x1 : Vec F S1x2048x256 .f32) (u : Fin 1) (r : Fin 4096) (q : Fin 256) (h : r.val < 2048) :
    pairBlock x0 x1 (ix3 u r q)
      = FloatOps.mulf (FloatOps.addf (x0 (ix3 (⟨0, Nat.one_pos⟩ : Fin 1) (⟨r.val, h⟩ : Fin 2048) q))
          (x1 (ix3 (⟨0, Nat.one_pos⟩ : Fin 1) (⟨r.val, h⟩ : Fin 2048) q))) scale := by
  unfold pairBlock
  rw [add_unit_apply]
  unfold pairRows
  rw [rows_low _ _ r q h]
  exact sums_apply x0 x1 ⟨r.val, h⟩ q

/-- The output block in its last 2048 rows: the scaled difference. -/
theorem pairBlock_high (x0 x1 : Vec F S1x2048x256 .f32) (u : Fin 1) (r : Fin 4096) (q : Fin 256) (h : 2048 ≤ r.val) :
    pairBlock x0 x1 (ix3 u r q)
      = FloatOps.mulf (FloatOps.subf (x0 (ix3 (⟨0, Nat.one_pos⟩ : Fin 1) (⟨r.val - 2048, by have := r.isLt; omega⟩ : Fin 2048) q))
          (x1 (ix3 (⟨0, Nat.one_pos⟩ : Fin 1) (⟨r.val - 2048, by have := r.isLt; omega⟩ : Fin 2048) q))) scale := by
  unfold pairBlock
  rw [add_unit_apply]
  unfold pairRows
  rw [rows_high _ _ r q h]
  exact diffs_apply x0 x1 ⟨r.val - 2048, by have := r.isLt; omega⟩ q

end Cert.KernelIdeal.Haar

end
-- ==== Proof.IdealValue.lean ====
/-
  What the kernel's result array holds after the run: the Haar step of the argument.

  At grid point t = (b, j) the even-rows window's block entry (0, r, q) is xr (b, r, 256 j + q) and the odd-rows
  window's is xr (b, r, 512 + 256 j + q), where xr : [32, 2048, 1024] is x : [32, 4096, 512] with rows 2r and 2r+1
  side by side: so they are x (b, 2r, 256 j + q) and x (b, 2r+1, 256 j + q).  The output block's entry (0, l, q)
  lands at (b, l, 256 j + q) of the result.  Hence what point t writes back is the block of the Haar step of x at
  t; the 32 · 2 blocks [1, 4096, 256] fill [32, 4096, 512], so the result array ends as the Haar step of x.
-/
import proofs.«149679_j4217657884944_2_alg».proof.Proof.IdealRun
import proofs.«149679_j4217657884944_2_alg».proof.Proof.IdealBlockValue
import Idealize.ShloMosaic.Lib.Pipeline.Value
import Idealize.ShloMosaic.Lib.ValueIdx
import Idealize.ShloMosaic.Lib.StableHlo.Run

set_option maxRecDepth 16384

noncomputable section

namespace Cert.KernelIdeal.Haar

open Cert.KernelIdeal.Gen Cert.HaarSpec
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## Where the windows' blocks sit -/

/-- The three index maps over the grid: the even-rows window sits at the output's batch entry and lane tile, the
    odd-rows window two lane tiles further (past the 512 lanes of the even rows), none moves along the rows. -/
theorem idx_facts : ∀ t : Fin cfg0.N, win0_0.index t (0 : Fin 3) = win0_2.index t (0 : Fin 3)
    ∧ win0_0.index t (1 : Fin 3) = 0
    ∧ win0_0.index t (2 : Fin 3) = win0_2.index t (2 : Fin 3)
    ∧ win0_1.index t (0 : Fin 3) = win0_2.index t (0 : Fin 3)
    ∧ win0_1.index t (1 : Fin 3) = 0
    ∧ win0_1.index t (2 : Fin 3) = win0_2.index t (2 : Fin 3) + 2
    ∧ win0_2.index t (0 : Fin 3) ≤ 31
    ∧ win0_2.index t (1 : Fin 3) = 0
    ∧ win0_2.index t (2 : Fin 3) ≤ 1 :=
  (by decide +kernel : ∀ t : Fin grid0.N, _)

/-- Every (batch entry, lane tile) is some grid point's. -/
theorem idx_onto : ∀ (q0 : Fin 32) (q2 : Fin 2), ∃ t : Fin cfg0.N, win0_2.index t = ![q0.val, 0, q2.val] :=
  (by decide +kernel : ∀ (q0 : Fin 32) (q2 : Fin 2), ∃ t : Fin grid0.N, win0_2.index t = ![q0.val, 0, q2.val])

/-- The region finds xr: the argument under the shape [32, 2048, 1024]. -/
theorem V_main_v0 (c : Dev nD) :
    (V m c main_v0 : S32x2048x1024.Idx → Elt F .f32)
      = shapeCast S32x2048x1024 (m ((c : Thread nD τ).loc main_arg0)) shapeCasts_S32x4096x512_S32x2048x1024 := by
  dsimp only [V, hostOps0]; after_results; rfl

/-- The even-rows block at (0, r, q) is x (b, 2r, f), b the point's batch entry and f = 256 j + q its lane. -/
theorem even_block (c : Dev nD) (t : Fin cfg0.N) (r : Fin 2048) (q : Fin 256) (b : Fin 32) (f : Fin 512) (e : Fin 4096)
    (hb : b.val = win0_2.index t (0 : Fin 3)) (hf : f.val = win0_2.index t (2 : Fin 3) * 256 + q.val) (he : e.val = 2 * r.val) :
    iblk m c 0 t (ix3 (⟨0, Nat.one_pos⟩ : Fin 1) r q) = m ((c : Thread nD τ).loc main_arg0) (ix3 b e f) := by
  show V m c main_v0 (((cfg0.win 0).blk t).view.emb (ix3 (⟨0, Nat.one_pos⟩ : Fin 1) r q)) = _
  rw [V_main_v0]
  refine shapeCast_apply _ _ _ (ix3 b e f) ?_
  rewrite [Shape.rowMajor_val_three, Shape.rowMajor_val_three]
  obtain ⟨e0, e1, e2, e3, e4, e5, e6, e7, e8⟩ := idx_facts t
  have hq := q.isLt
  have hr := r.isLt
  show (b.val * 4096 + e.val) * 512 + f.val
    = ((win0_0.index t (0 : Fin 3) * 1 + 1 * 0) * 2048 + (win0_0.index t (1 : Fin 3) * 2048 + 1 * r.val)) * 1024
      + (win0_0.index t (2 : Fin 3) * 256 + 1 * q.val)
  omega

/-- The odd-rows block at (0, r, q) is x (b, 2r + 1, f). -/
theorem odd_block (c : Dev nD) (t : Fin cfg0.N) (r : Fin 2048) (q : Fin 256) (b : Fin 32) (f : Fin 512) (o : Fin 4096)
    (hb : b.val = win0_2.index t (0 : Fin 3)) (hf : f.val = win0_2.index t (2 : Fin 3) * 256 + q.val) (ho : o.val = 2 * r.val + 1) :
    iblk m c 1 t (ix3 (⟨0, Nat.one_pos⟩ : Fin 1) r q) = m ((c : Thread nD τ).loc main_arg0) (ix3 b o f) := by
  show V m c main_v0 (((cfg0.win 1).blk t).view.emb (ix3 (⟨0, Nat.one_pos⟩ : Fin 1) r q)) = _
  rw [V_main_v0]
  refine shapeCast_apply _ _ _ (ix3 b o f) ?_
  rewrite [Shape.rowMajor_val_three, Shape.rowMajor_val_three]
  obtain ⟨e0, e1, e2, e3, e4, e5, e6, e7, e8⟩ := idx_facts t
  have hq := q.isLt
  have hr := r.isLt
  show (b.val * 4096 + o.val) * 512 + f.val
    = ((win0_1.index t (0 : Fin 3) * 1 + 1 * 0) * 2048 + (win0_1.index t (1 : Fin 3) * 2048 + 1 * r.val)) * 1024
      + (win0_1.index t (2 : Fin 3) * 256 + 1 * q.val)
  omega

/-- The output block's entry (0, l, q) lands at (b, l, f) of the result. -/
theorem out_emb (t : Fin cfg0.N) (l : Fin 4096) (q : Fin 256) (b : Fin 32) (f : Fin 512)
    (hb : b.val = win0_2.index t (0 : Fin 3)) (hf : f.val = win0_2.index t (2 : Fin 3) * 256 + q.val) :
    ((cfg0.win 2).blk t).view.emb (ix3 (⟨0, Nat.one_pos⟩ : Fin 1) l q) = (ix3 b l f : S32x4096x512.Idx) := by
  obtain ⟨e0, e1, e2, e3, e4, e5, e6, e7, e8⟩ := idx_facts t
  funext a; apply Fin.ext
  match a with
  | ⟨0, _⟩ => show win0_2.index t (0 : Fin 3) * 1 + 1 * 0 = b.val; omega
  | ⟨1, _⟩ => show win0_2.index t (1 : Fin 3) * 4096 + 1 * l.val = l.val; omega
  | ⟨2, _⟩ => show win0_2.index t (2 : Fin 3) * 256 + 1 * q.val = f.val; omega

/-! ## What a point writes back, and the whole array -/

/-- WHAT POINT `t` WRITES BACK is block `t` of the Haar step of the argument. -/
theorem flushed_eq (c : Dev nD) (t : Fin cfg0.N) :
    (dats m 0 c).flushed 2 t = ((cfg0.win 2).blk t).view.read (Elt F) (haar (m ((c : Thread nD τ).loc main_arg0))) := by
  show (cfg0.win 2).cut (grid0.coords t) ((dats m 0 c).after 2 t) = _
  rw [after2]
  funext j
  obtain ⟨u, l, q, rfl⟩ : ∃ (u : Fin 1) (l : Fin 4096) (q : Fin 256), j = ix3 u l q := ⟨j 0, j 1, j 2, eq_ix3 j⟩
  obtain rfl : u = ⟨0, Nat.one_pos⟩ := Fin.ext (by have := u.isLt; omega)
  obtain ⟨e0, e1, e2, e3, e4, e5, e6, e7, e8⟩ := idx_facts t
  have hq := q.isLt
  have hl := l.isLt
  show pairBlock (iblk m c 0 t) (iblk m c 1 t) (ix3 (⟨0, Nat.one_pos⟩ : Fin 1) l q)
    = haar (m ((c : Thread nD τ).loc main_arg0)) (((cfg0.win 2).blk t).view.emb (ix3 (⟨0, Nat.one_pos⟩ : Fin 1) l q))
  rw [out_emb t l q ⟨win0_2.index t (0 : Fin 3), by omega⟩ ⟨win0_2.index t (2 : Fin 3) * 256 + q.val, by omega⟩ rfl rfl, haar_ix3]
  by_cases h : l.val < 2048
  · rw [pairBlock_low _ _ _ l q h,
      even_block m c t ⟨l.val, h⟩ q ⟨win0_2.index t (0 : Fin 3), by omega⟩ ⟨win0_2.index t (2 : Fin 3) * 256 + q.val, by omega⟩
        ⟨2 * l.val, by omega⟩ rfl rfl rfl,
      odd_block m c t ⟨l.val, h⟩ q ⟨win0_2.index t (0 : Fin 3), by omega⟩ ⟨win0_2.index t (2 : Fin 3) * 256 + q.val, by omega⟩
        ⟨2 * l.val + 1, by omega⟩ rfl rfl rfl,
      haarAt_low _ _ l _ h ⟨2 * l.val, by omega⟩ ⟨2 * l.val + 1, by omega⟩ rfl rfl]
  · have h' : 2048 ≤ l.val := by omega
    rw [pairBlock_high _ _ _ l q h',
      even_block m c t ⟨l.val - 2048, by omega⟩ q ⟨win0_2.index t (0 : Fin 3), by omega⟩ ⟨win0_2.index t (2 : Fin 3) * 256 + q.val, by omega⟩
        ⟨2 * (l.val - 2048), by omega⟩ rfl rfl rfl,
      odd_block m c t ⟨l.val - 2048, by omega⟩ q ⟨win0_2.index t (0 : Fin 3), by omega⟩ ⟨win0_2.index t (2 : Fin 3) * 256 + q.val, by omega⟩
        ⟨2 * (l.val - 2048) + 1, by omega⟩ rfl rfl rfl,
      haarAt_high _ _ l _ h' ⟨2 * (l.val - 2048), by omega⟩ ⟨2 * (l.val - 2048) + 1, by omega⟩ rfl rfl]

/-- An index of the result is in point `t`'s block iff each coordinate is in the block's range on its axis. -/
theorem mem_blk (t : Fin cfg0.N) (i : S32x4096x512.Idx) :
    i ∈ ((cfg0.win 2).blk t).view.set ↔ ∀ a : Fin 3, win0_2.index t a * S1x4096x256.size a ≤ (i a).val
      ∧ (i a).val < win0_2.index t a * S1x4096x256.size a + S1x4096x256.size a := by
  show i ∈ ((View.whole main_v1).slice (win0_2.rect t)).set ↔ _
  rw [View.set_slice_whole, Rect.mem_set_unit]
  exact Iff.rfl

/-- Every index of the result is in some point's block: the one of its batch entry and lane tile. -/
theorem cover (i : S32x4096x512.Idx) : ∃ t : Fin cfg0.N, (cfg0.win 2).flush t = true ∧ i ∈ ((cfg0.win 2).blk t).view.set := by
  have hi0 : (i 0).val < 32 := (i 0).isLt
  have hi1 : (i 1).val < 4096 := (i 1).isLt
  have hi2 : (i 2).val < 512 := (i 2).isLt
  obtain ⟨t, ht⟩ := idx_onto ⟨(i 0).val, hi0⟩ ⟨(i 2).val / 256, by omega⟩
  have q0 : win0_2.index t (0 : Fin 3) = (i 0).val := congrFun ht 0
  have q1 : win0_2.index t (1 : Fin 3) = 0 := congrFun ht 1
  have q2 : win0_2.index t (2 : Fin 3) = (i 2).val / 256 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 256 ≤ (i 2).val ∧ (i 2).val < win0_2.index t (2 : Fin 3) * 256 + 256; omega

/-- THE RESULT ARRAY after the run: the Haar step of the argument. -/
theorem final (c : Dev nD) : (dats m 0 c).arrAt 2 cfg0.N = haar (m ((c : Thread nD τ).loc main_arg0)) :=
  (dats m 0 c).arrAt_eq_of_cover 2 _ (fun t _ => flushed_eq m c t) cover

/-! ## The run, read -/

/-- Every weakly fair execution of @main terminates without a fault, with the result array at the Haar step of
    the argument and the argument unchanged. -/
theorem run : θ_run defs (onTc (τ := τ) (main (F := F))) ⟨m, fun _ => 0, ρ⟩ fun r => ∀ c : Dev nD,
      r.2.mem ((c : Thread nD τ).loc main_v1) = haar (m ((c : Thread nD τ).loc main_arg0))
      ∧ r.2.mem ((c : Thread nD τ).loc main_arg0) = m ((c : Thread nD τ).loc main_arg0) :=
  (θ_run defs _ _).mono (fun r h c => ⟨((h c).1 2).trans (final m c),
      ((h c).2 main_arg0 (Pipeline.mem_restRefs_of main_arg0 (by decide) (by decide))).trans (V_main_arg0 m c)⟩)
    (run_main m ρ)

end Cert.KernelIdeal.Haar

end
-- ==== Proof.RefValue.lean ====
/-
  The reference computes the Haar step of `HaarSpec`.  It views x : [32, 4096, 512] as [32, 2048, 2, 512] — entry
  (b, p, r, f) is x (b, 2p + r, f) —, takes the slices r = 0 and r = 1 as two arrays [32, 2048, 512] (the even and
  the odd rows), scales their sum and their difference by the same word, and joins the two along the sequence axis:
  row l < 2048 of the result comes from the first, row 2048 + p from the second.
-/
import proofs.«149679_j4217657884944_2_alg».proof.Proof.Gen.ReferenceIdeal.Read
import proofs.«149679_j4217657884944_2_alg».proof.Proof.HaarSpec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.HaarSpec
open Idealize.ShloMosaic Idealize.ShloMosaic.ValueIdx

variable {F : FTy → Type} [FloatOps F]

/-- Entry (b, p, r, f) of the four-axis view is x (b, 2p + r, f). -/
theorem view4 (x : (⟨S32x4096x512, .f32⟩ : BufTy).Contents (Elt F)) (b : Fin 32) (p : Fin 2048) (r : Fin 2) (f : Fin 512)
    (l : Fin 4096) (hl : l.val = 2 * p.val + r.val) :
    val_main_v0 (F := F) x (ix4 b p r f) = x (ix3 b l f) := by
  rw [val_main_v0_apply]
  congr 1
  funext a; apply Fin.ext
  have hb := b.isLt; have hp := p.isLt; have hr := r.isLt; have hf := f.isLt
  match a with
  | ⟨0, _⟩ => show (((b.val * 2048 + p.val) * 2 + r.val) * 512 + f.val) / 2097152 = b.val; omega
  | ⟨1, _⟩ => show (((b.val * 2048 + p.val) * 2 + r.val) * 512 + f.val) / 512 % 4096 = l.val; omega
  | ⟨2, _⟩ => show (((b.val * 2048 + p.val) * 2 + r.val) * 512 + f.val) % 512 = f.val; omega

/-- Dropping the unit axis of a slice [32, 2048, 1, 512]: entry (b, p, f) is the slice's (b, p, 0, f). -/
theorem drop_unit (b : Fin 32) (p : Fin 2048) (f : Fin 512) :
    idx_main_v2 (ix3 b p f) = ix4 b p (0 : Fin 1) f := by
  funext a; apply Fin.ext
  have hb := b.isLt; have hp := p.isLt; have hf := f.isLt
  match a with
  | ⟨0, _⟩ => show ((b.val * 2048 + p.val) * 512 + f.val) / 1048576 = b.val; omega
  | ⟨1, _⟩ => show ((b.val * 2048 + p.val) * 512 + f.val) / 512 % 2048 = p.val; omega
  | ⟨2, _⟩ => rfl
  | ⟨3, _⟩ => show ((b.val * 2048 + p.val) * 512 + f.val) % 512 = f.val; omega

/-- The even rows: the first slice at (b, p, f) is x (b, 2p, f). -/
theorem even_rows (x : (⟨S32x4096x512, .f32⟩ : BufTy).Contents (Elt F)) (b : Fin 32) (p : Fin 2048) (f : Fin 512)
    (e : Fin 4096) (he : e.val = 2 * p.val) :
    val_main_v2 (F := F) x (ix3 b p f) = x (ix3 b e f) := by
  rw [val_main_v2_apply, drop_unit, val_main_v1_apply]
  have h1 : idx_main_v1 (ix4 b p (0 : Fin 1) f) = ix4 b p (0 : Fin 2) f := by
    funext a; apply Fin.ext
    match a with
    | ⟨0, _⟩ => rfl
    | ⟨1, _⟩ => rfl
    | ⟨2, _⟩ => rfl
    | ⟨3, _⟩ => rfl
  rw [h1]
  exact view4 x b p 0 f e (by rw [he]; rfl)

/-- The odd rows: the second slice at (b, p, f) is x (b, 2p + 1, f). -/
theorem odd_rows (x : (⟨S32x4096x512, .f32⟩ : BufTy).Contents (Elt F)) (b : Fin 32) (p : Fin 2048) (f : Fin 512)
    (o : Fin 4096) (ho : o.val = 2 * p.val + 1) :
    val_main_v4 (F := F) x (ix3 b p f) = x (ix3 b o f) := by
  rw [val_main_v4_apply, show idx_main_v4 (ix3 b p f) = ix4 b p (0 : Fin 1) f from drop_unit b p f, val_main_v3_apply]
  have h1 : idx_main_v3 (ix4 b p (0 : Fin 1) f) = ix4 b p (1 : Fin 2) f := by
    funext a; apply Fin.ext
    match a with
    | ⟨0, _⟩ => rfl
    | ⟨1, _⟩ => rfl
    | ⟨2, _⟩ => rfl
    | ⟨3, _⟩ => rfl
  rw [h1]
  exact view4 x b p 1 f o (by rw [ho]; rfl)

/-- The first joined array: the scaled sums. -/
theorem sums (x : (⟨S32x4096x512, .f32⟩ : BufTy).Contents (Elt F)) (b : Fin 32) (p : Fin 2048) (f : Fin 512)
    (e o : Fin 4096) (he : e.val = 2 * p.val) (ho : o.val = 2 * p.val + 1) :
    val_main_v7 (F := F) x (ix3 b p f) = FloatOps.mulf (FloatOps.addf (x (ix3 b e f)) (x (ix3 b o f))) scale := by
  rw [val_main_v7_apply, val_main_v5_apply, even_rows x b p f e he, odd_rows x b p f o ho, val_main_v6_apply, val_main_cst_apply]
  rfl

/-- The second joined array: the scaled differences. -/
theorem diffs (x : (⟨S32x4096x512, .f32⟩ : BufTy).Contents (Elt F)) (b : Fin 32) (p : Fin 2048) (f : Fin 512)
    (e o : Fin 4096) (he : e.val = 2 * p.val) (ho : o.val = 2 * p.val + 1) :
    val_main_v10 (F := F) x (ix3 b p f) = FloatOps.mulf (FloatOps.subf (x (ix3 b e f)) (x (ix3 b o f))) scale := by
  rw [val_main_v10_apply, val_main_v8_apply, even_rows x b p f e he, odd_rows x b p f o ho, val_main_v9_apply, val_main_cst_0_apply]
  rfl

/-- The reference's result is the Haar step of its argument. -/
theorem result_eq (x : (⟨S32x4096x512, .f32⟩ : BufTy).Contents (Elt F)) : val_main_v11 (F := F) x = haar x := by
  funext i
  obtain ⟨b, l, f, rfl⟩ : ∃ (b : Fin 32) (l : Fin 4096) (f : Fin 512), i = ix3 b l f := ⟨i 0, i 1, i 2, eq_ix3 i⟩
  rw [haar_ix3]
  unfold val_main_v11
  by_cases h : l.val < 2048
  · rw [concatenate_pair_apply_left (t := S32x4096x512) (s₁ := S32x2048x512) (s₂ := S32x2048x512) (1 : Fin 3) (val_main_v7 (F := F) x) (val_main_v10 (F := F) x)
      concatenates_S32x2048x512_S32x2048x512_S32x4096x512_d1 (ix3 b l f) rfl
      (ix3 b (⟨l.val, h⟩ : Fin 2048) f : S32x2048x512.Idx) (fun a => match a with | ⟨0, _⟩ => rfl | ⟨1, _⟩ => rfl | ⟨2, _⟩ => rfl)]
    rw [sums x b ⟨l.val, h⟩ f ⟨2 * l.val, by omega⟩ ⟨2 * l.val + 1, by omega⟩ rfl rfl,
      haarAt_low x b l f h ⟨2 * l.val, by omega⟩ ⟨2 * l.val + 1, by omega⟩ rfl rfl]
  · have hl := l.isLt
    have h' : 2048 ≤ l.val := by omega
    rw [concatenate_pair_apply_right (t := S32x4096x512) (s₁ := S32x2048x512) (s₂ := S32x2048x512) (1 : Fin 3) (val_main_v7 (F := F) x) (val_main_v10 (F := F) x)
      concatenates_S32x2048x512_S32x2048x512_S32x4096x512_d1 (ix3 b l f) rfl rfl
      (ix3 b (⟨l.val - 2048, by omega⟩ : Fin 2048) f : S32x2048x512.Idx)
      (fun a ha => match a with | ⟨0, _⟩ => rfl | ⟨1, _⟩ => absurd rfl ha | ⟨2, _⟩ => rfl)
      (show (l.val - 2048) + 2048 = l.val by omega)]
    rw [diffs x b ⟨l.val - 2048, by omega⟩ f ⟨2 * (l.val - 2048), by omega⟩ ⟨2 * (l.val - 2048) + 1, by omega⟩ rfl rfl,
      haarAt_high x b l f h' ⟨2 * (l.val - 2048), by omega⟩ ⟨2 * (l.val - 2048) + 1, by omega⟩ rfl rfl]

end Cert.ReferenceIdeal.RefValue

end
-- ==== Proof.lean ====
/-
  The level-1 Haar step (wavelet db1) along the sequence axis of x : [32, 4096, 512]: a tiled kernel against its
  whole-array reference, equal over the extended reals.

  The kernel views x as xr : [32, 2048, 1024], whose row p is rows 2p and 2p+1 of x side by side, and hands that ONE
  array to two input windows: lanes [256 j, 256 j + 256) of xr[b] are the even rows of x on lane tile j, lanes
  [512 + 256 j, …) the odd rows.  Each grid point (b, j) stores (even + odd) · c in the first 2048 rows of its output
  block and (even − odd) · c in the last 2048, c the single-precision word nearest 1/√2.  The reference slices the
  even and the odd rows out of a four-axis view of x, scales their sum and difference by the same word and joins the
  two along the sequence axis.  Both are the function `HaarSpec.haar` of x, entry by entry, with the same operations
  in the same order on the same entries: no arithmetic law, and no finiteness of x, is used.

  The frames of the two kernel programs (the printed one at bit patterns, the idealized one at extended reals) are
  one argument written over any reading of the floats: the body's triple at a grid point, the shared input array's
  ownership halved between its two reading windows, and the library's launch theorem for windows that share an
  array.  The reference's frame is its run with the result dropped.  The idealization rewrote no operation, so `preserves`
  has nothing to state.
-/
import proofs.«149679_j4217657884944_2_alg».proof.Defs
import proofs.«149679_j4217657884944_2_alg».proof.Proof.Gen.Kernel
import proofs.«149679_j4217657884944_2_alg».proof.Proof.Gen.KernelIdeal
import proofs.«149679_j4217657884944_2_alg».proof.Proof.Gen.ReferenceIdeal
import proofs.«149679_j4217657884944_2_alg».proof.Proof.Gen.ReferenceIdeal.Run
import proofs.«149679_j4217657884944_2_alg».proof.Proof.Gen.ReferenceIdeal.Read
import proofs.«149679_j4217657884944_2_alg».proof.Proof.Gen.Pre_finite_inputs
import proofs.«149679_j4217657884944_2_alg».proof.Proof.BitsRun
import proofs.«149679_j4217657884944_2_alg».proof.Proof.IdealValue
import proofs.«149679_j4217657884944_2_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs to the end, faults nowhere and leaves x unchanged. -/
theorem frame_k : Cert.frame_Kernel := fun m ρ _ => Cert.Kernel.Haar.frame m ρ

/-- So does its idealization. -/
theorem frame_ki : Cert.frame_KernelIdeal := fun m ρ _ => Cert.KernelIdeal.Haar.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the Haar step of x in their result, x unchanged. -/
theorem algebraic : Cert.algebraic_KernelIdeal_ReferenceIdeal := by
  intro m ρ m' ρ' _ hagree
  refine ⟨fun c => Cert.HaarSpec.haar (m ((c.tc : Thread Cert.KernelIdeal.nD Cert.KernelIdeal.τ).loc Cert.KernelIdeal.main_arg0)),
    Cert.KernelIdeal.Haar.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v11_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
